-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12x1024x64 : Shape := ⟨4, ![8, 12, 1024, 64]⟩
abbrev S8x12x1024x1024 : Shape := ⟨4, ![8, 12, 1024, 1024]⟩
abbrev S_ : Shape := ⟨0, ![]⟩

class Facts : Prop where
  bcast_S_S8x12x1024x64 : S_.BroadcastsInDim S8x12x1024x64 (![] : Fin 0 → Fin S8x12x1024x64.rank)
  reducesTo_S8x12x1024x64_S_d0_1_2_3 : S8x12x1024x64.ReducesTo [0, 1, 2, 3] S_
  h_S_ : 0 < S_.numel

variable [Facts]

def fn {F : FTy → Type} [FloatOps F] (main_arg0 : FVec F S8x12x1024x64 .f32) (main_arg1 : FVec F S8x12x1024x64 .f32) (main_arg2 : FVec F S8x12x1024x64 .f32) (main_arg3 : IVec S8x12x1024x1024 1) : IVec S_ 1 :=
  let main_v0 : FVec F S8x12x1024x64 .f32 := Host.absf main_arg0
  let main_cst : FVec F S_ .f32 := constant S_ .f32 0x7F800000#32
  let main_v1 : FVec F S8x12x1024x64 .f32 := broadcastInDim S8x12x1024x64 ![] bcast_S_S8x12x1024x64 main_cst
  let main_v2 : IVec S8x12x1024x64 1 := cmpf .olt main_v0 main_v1
  let main_c : IVec S_ 1 := constantI S_ 1 1#1
  let main_v3 : IVec S_ 1 := (fun x v => Host.reduce IntOp.andi x v reducesTo_S8x12x1024x64_S_d0_1_2_3 h_S_) main_v2 main_c
  let main_v4 : FVec F S8x12x1024x64 .f32 := Host.absf main_arg1
  let main_cst_0 : FVec F S_ .f32 := constant S_ .f32 0x7F800000#32
  let main_v5 : FVec F S8x12x1024x64 .f32 := broadcastInDim S8x12x1024x64 ![] bcast_S_S8x12x1024x64 main_cst_0
  let main_v6 : IVec S8x12x1024x64 1 := cmpf .olt main_v4 main_v5
  let main_c_1 : IVec S_ 1 := constantI S_ 1 1#1
  let main_v7 : IVec S_ 1 := (fun x v => Host.reduce IntOp.andi x v reducesTo_S8x12x1024x64_S_d0_1_2_3 h_S_) main_v6 main_c_1
  let main_v8 : IVec S_ 1 := andi main_v3 main_v7
  let main_v9 : FVec F S8x12x1024x64 .f32 := Host.absf main_arg2
  let main_cst_2 : FVec F S_ .f32 := constant S_ .f32 0x7F800000#32
  let main_v10 : FVec F S8x12x1024x64 .f32 := broadcastInDim S8x12x1024x64 ![] bcast_S_S8x12x1024x64 main_cst_2
  let main_v11 : IVec S8x12x1024x64 1 := cmpf .olt main_v9 main_v10
  let main_c_3 : IVec S_ 1 := constantI S_ 1 1#1
  let main_v12 : IVec S_ 1 := (fun x v => Host.reduce IntOp.andi x v reducesTo_S8x12x1024x64_S_d0_1_2_3 h_S_) main_v11 main_c_3
  let main_v13 : IVec S_ 1 := andi main_v8 main_v12
  main_v13
-- ==== Kernel.lean ====
abbrev S8x12x1024x64 : Shape := ⟨4, ![8, 12, 1024, 64]⟩
abbrev S8x12x1024x1024 : Shape := ⟨4, ![8, 12, 1024, 1024]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S1024x1024 : Shape := ⟨2, ![1024, 1024]⟩
abbrev S64x1024 : Shape := ⟨2, ![64, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x12x1024x64, .f32⟩
  | .hbm, ⟨1, _⟩ => ⟨S8x12x1024x64, .f32⟩
  | .hbm, ⟨2, _⟩ => ⟨S8x12x1024x64, .f32⟩
  | .hbm, ⟨3, _⟩ => ⟨S8x12x1024x1024, .i1⟩
  | .hbm, ⟨4, _⟩ => ⟨S8x12x1024x1024, .i32⟩
  | .hbm, ⟨5, _⟩ => ⟨S8x12x1024x64, .f32⟩
  | .hbm, ⟨6, _⟩ => ⟨S8x12x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x1024, .i32⟩
  | .local _ .vmem, ⟨7, _⟩ => ⟨S1x1x1024x1024, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | _, _ => ⟨S8x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  bitsLt_bf16_f32 : FTy.bits .bf16 < FTy.bits .f32
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1x1024x1024 : S1024x1024.ShapeCasts S1x1x1024x1024
  shapeCasts_S1024x64_S1x1x1024x64 : S1024x64.ShapeCasts S1x1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x12x1024x64.size a
  hwx0_0 : ∀ i : grid0.Coords, EltTy.bits .f32 = 32 ∨ (Rect.block (s := S8x12x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x12x1024x64.size a
  hwx0_1 : ∀ i : grid0.Coords, EltTy.bits .f32 = 32 ∨ (Rect.block (s := S8x12x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x12x1024x64.size a
  hwx0_2 : ∀ i : grid0.Coords, EltTy.bits .f32 = 32 ∨ (Rect.block (s := S8x12x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S8x12x1024x1024.size a
  hwx0_3 : ∀ i : grid0.Coords, EltTy.bits .i32 = 32 ∨ (Rect.block (s := S8x12x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x12x1024x64.size a
  hwx0_4 : ∀ i : grid0.Coords, EltTy.bits .f32 = 32 ∨ (Rect.block (s := S8x12x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x12x1024x1024.size a
  hwx0_5 : ∀ i : grid0.Coords, EltTy.bits .f32 = 32 ∨ (Rect.block (s := S8x12x1024x1024) S1x1x1024x1024.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x12x1024x64, .f32⟩
  | .hbm, ⟨1, _⟩ => ⟨S8x12x1024x64, .f32⟩
  | .hbm, ⟨2, _⟩ => ⟨S8x12x1024x64, .f32⟩
  | .hbm, ⟨3, _⟩ => ⟨S8x12x1024x1024, .i1⟩
  | .hbm, ⟨4, _⟩ => ⟨S8x12x1024x1024, .f32⟩
  | .hbm, ⟨5, _⟩ => ⟨S_, .f32⟩
  | .hbm, ⟨6, _⟩ => ⟨S8x12x1024x1024, .f32⟩
  | .hbm, ⟨7, _⟩ => ⟨S8x12x1024x1024, .f32⟩
  | .hbm, ⟨8, _⟩ => ⟨S_, .f32⟩
  | .hbm, ⟨9, _⟩ => ⟨S8x12x1024x1024, .f32⟩
  | .hbm, ⟨10, _⟩ => ⟨S8x12x1024x1024, .f32⟩
  | .hbm, ⟨11, _⟩ => ⟨S_, .f32⟩
  | .hbm, ⟨12, _⟩ => ⟨S8x12x1024, .f32⟩
  | .hbm, ⟨13, _⟩ => ⟨S_, .f32⟩
  | .hbm, ⟨14, _⟩ => ⟨S8x12x1024, .f32⟩
  | .hbm, ⟨15, _⟩ => ⟨S8x12x1024, .f32⟩
  | .hbm, ⟨16, _⟩ => ⟨S8x12x1024x1, .f32⟩
  | .hbm, ⟨17, _⟩ => ⟨S8x12x1024x1024, .f32⟩
  | .hbm, ⟨18, _⟩ => ⟨S8x12x1024x1024, .f32⟩
  | .hbm, ⟨19, _⟩ => ⟨S8x12x1024x1024, .f32⟩
  | .hbm, ⟨20, _⟩ => ⟨S_, .f32⟩
  | .hbm, ⟨21, _⟩ => ⟨S8x12x1024, .f32⟩
  | .hbm, ⟨22, _⟩ => ⟨S8x12x1024x1, .f32⟩
  | .hbm, ⟨23, _⟩ => ⟨S8x12x1024x1024, .f32⟩
  | .hbm, ⟨24, _⟩ => ⟨S8x12x1024x1024, .f32⟩
  | .hbm, ⟨25, _⟩ => ⟨S8x12x1024x64, .f32⟩
  | _, _ => ⟨S8x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.LibSqueeze.lean ====
/-
  A block with two leading unit axes viewed as a matrix, and a matrix viewed as such a block, read at an index: the
  [1, 1, m, n] block at (0, 0, r, c) is the [m, n] matrix at (r, c) — both sit at row-major position r · n + c.
-/
import Idealize.ShloMosaic.Lib.Pipeline.Value
import Idealize.ShloMosaic.Lib.ValueIdx

noncomputable section

namespace Squeeze

open Idealize.ShloMosaic Idealize.ShloMosaic.ValueIdx

variable {α : Type}

/-- A 1 × 1 × m × n block viewed as an m × n matrix reads (r, c) at (0, 0, r, c). -/
theorem squeeze2_apply {m n : Nat} (P : (⟨4, ![1, 1, m, n]⟩ : Shape).Idx → α)
    (h : (⟨4, ![1, 1, m, n]⟩ : Shape).ShapeCasts ⟨2, ![m, n]⟩) (r : Fin m) (c : Fin n) :
    shapeCast ⟨2, ![m, n]⟩ P h (ix2 r c) = P (ix4 (0 : Fin 1) (0 : Fin 1) r c) :=
  shapeCast_apply P h _ _ (by
    rw [Shape.rowMajor_val_four, Shape.rowMajor_val_two]
    show ((0 * 1 + 0) * m + r.val) * n + c.val = r.val * n + c.val
    simp)

/-- An m × n matrix viewed as a 1 × 1 × m × n block reads `y` at (y 2, y 3). -/
theorem unsqueeze2_apply {m n : Nat} (X : (⟨2, ![m, n]⟩ : Shape).Idx → α)
    (h : (⟨2, ![m, n]⟩ : Shape).ShapeCasts ⟨4, ![1, 1, m, n]⟩) (y : (⟨4, ![1, 1, m, n]⟩ : Shape).Idx) :
    shapeCast ⟨4, ![1, 1, m, n]⟩ X h y = X (ix2 (y 2) (y 3)) :=
  shapeCast_apply X h _ _ (by
    have h0 : (y 0).val < 1 := (y 0).isLt
    have h1 : (y 1).val < 1 := (y 1).isLt
    have e0 : (y 0).val = 0 := by omega
    have e1 : (y 1).val = 0 := by omega
    rw [Shape.rowMajor_val_two, Shape.rowMajor_val_four]
    show (y 2).val * n + (y 3).val = (((y 0).val * 1 + (y 1).val) * m + (y 2).val) * n + (y 3).val
    rw [e0, e1]
    simp)

end Squeeze

end
-- ==== Proof.BodyOps.lean ====
/-
  Layout steps and the two matrix products of the attention body, read at an index.

  A block with two leading unit axes viewed as a matrix (and back), the transposed key matrix, and the two products
  on the matrix unit into a zero accumulator: queries (1024 × 64) times transposed keys (64 × 1024), entry (q, k) the sum
  over the 64 features; weights (1024 × 1024) times values (1024 × 64), entry (q, d) the sum over the 1024 keys.
-/
import proofs.«159906_j1657857376380_1_alg».proof.Proof.Gen.KernelIdeal
import proofs.«159906_j1657857376380_1_alg».proof.Proof.LibSqueeze
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-! ## Layout steps at an index -/

/-- A 1 × 1 × 1024 × n block viewed as a 1024 × n matrix reads (r, c) at (0, 0, r, c). -/
theorem squeeze_apply {α : Type} {n : Nat} (P : (⟨4, ![1, 1, 1024, n]⟩ : Shape).Idx → α)
    (h : (⟨4, ![1, 1, 1024, n]⟩ : Shape).ShapeCasts ⟨2, ![1024, n]⟩) (r : Fin 1024) (c : Fin n) :
    shapeCast ⟨2, ![1024, n]⟩ P h (ix2 r c) = P (ix4 (0 : Fin 1) (0 : Fin 1) r c) :=
  Squeeze.squeeze2_apply P h r c

/-- A 1024 × n matrix viewed as a 1 × 1 × 1024 × n block reads `y` at (y 2, y 3). -/
theorem unsqueeze_apply {α : Type} {n : Nat} (X : (⟨2, ![1024, n]⟩ : Shape).Idx → α)
    (h : (⟨2, ![1024, n]⟩ : Shape).ShapeCasts ⟨4, ![1, 1, 1024, n]⟩) (y : (⟨4, ![1, 1, 1024, n]⟩ : Shape).Idx) :
    shapeCast ⟨4, ![1, 1, 1024, n]⟩ X h y = X (ix2 (y 2) (y 3)) :=
  Squeeze.unsqueeze2_apply X h y

/-- The transposed key matrix reads (d, k) at (k, d). -/
theorem keysT_apply {α : Type} (X : S1024x64.Idx → α) (h : S1024x64.Transposes [1, 0] S64x1024) (d : Fin 64) (k : Fin 1024) :
    transpose S64x1024 [1, 0] X h (ix2 d k) = X (ix2 k d) :=
  transpose_apply [1, 0] X h (ix2 d k) (ix2 k d) (fun b => by match b with | ⟨0, _⟩ => rfl | ⟨1, _⟩ => rfl)

/-! ## The operand indices of the two products -/

theorem qk_lhs0 (i : S1024x1024.Idx) (p : dot_S1024x64_S64x1024_S1024x1024_1_0_0_1_n_n.contr.Idx) : (dot_S1024x64_S64x1024_S1024x1024_1_0_0_1_n_n.lhsIdx i p 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem qk_lhs1 (i : S1024x1024.Idx) (p : dot_S1024x64_S64x1024_S1024x1024_1_0_0_1_n_n.contr.Idx) : (dot_S1024x64_S64x1024_S1024x1024_1_0_0_1_n_n.lhsIdx i p 1).val = (p ⟨0, by decide⟩).val :=
  dot_S1024x64_S64x1024_S1024x1024_1_0_0_1_n_n.lhsIdx_val_of_single rfl i p
theorem qk_rhs0 (i : S1024x1024.Idx) (p : dot_S1024x64_S64x1024_S1024x1024_1_0_0_1_n_n.contr.Idx) : (dot_S1024x64_S64x1024_S1024x1024_1_0_0_1_n_n.rhsIdx i p 0).val = (p ⟨0, by decide⟩).val :=
  dot_S1024x64_S64x1024_S1024x1024_1_0_0_1_n_n.rhsIdx_val_of_single rfl i p
theorem qk_rhs1 (i : S1024x1024.Idx) (p : dot_S1024x64_S64x1024_S1024x1024_1_0_0_1_n_n.contr.Idx) : (dot_S1024x64_S64x1024_S1024x1024_1_0_0_1_n_n.rhsIdx i p 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem av_lhs0 (i : S1024x64.Idx) (p : dot_S1024x1024_S1024x64_S1024x64_1_0_0_1_n_n.contr.Idx) : (dot_S1024x1024_S1024x64_S1024x64_1_0_0_1_n_n.lhsIdx i p 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem av_lhs1 (i : S1024x64.Idx) (p : dot_S1024x1024_S1024x64_S1024x64_1_0_0_1_n_n.contr.Idx) : (dot_S1024x1024_S1024x64_S1024x64_1_0_0_1_n_n.lhsIdx i p 1).val = (p ⟨0, by decide⟩).val :=
  dot_S1024x1024_S1024x64_S1024x64_1_0_0_1_n_n.lhsIdx_val_of_single rfl i p
theorem av_rhs0 (i : S1024x64.Idx) (p : dot_S1024x1024_S1024x64_S1024x64_1_0_0_1_n_n.contr.Idx) : (dot_S1024x1024_S1024x64_S1024x64_1_0_0_1_n_n.rhsIdx i p 0).val = (p ⟨0, by decide⟩).val :=
  dot_S1024x1024_S1024x64_S1024x64_1_0_0_1_n_n.rhsIdx_val_of_single rfl i p
theorem av_rhs1 (i : S1024x64.Idx) (p : dot_S1024x1024_S1024x64_S1024x64_1_0_0_1_n_n.contr.Idx) : (dot_S1024x1024_S1024x64_S1024x64_1_0_0_1_n_n.rhsIdx i p 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-! ## The two matrix products at an entry -/

/-- Queries times transposed keys into a zero accumulator: entry (q, k) is the sum over the 64 features. -/
theorem qk_apply (A : FVec Ideal S1024x64 .bf16) (B : FVec Ideal S64x1024 .bf16) (q k : Fin 1024) :
    matmul dot_S1024x64_S64x1024_S1024x1024_1_0_0_1_n_n none A B (constant S1024x1024 .f32 0x00000000#32) (ix2 q k)
      = ∑ d : Fin 64, A (ix2 q d) * B (ix2 d k) := by
  simp only [matmul]
  rw [Ideal.matmul_constant_zero_apply, ← Equiv.sum_comp (contrEquiv1 dot_S1024x64_S64x1024_S1024x1024_1_0_0_1_n_n 64 rfl rfl).symm]
  refine Finset.sum_congr rfl fun d _ => ?_
  have hk := contrEquiv1_symm_val dot_S1024x64_S64x1024_S1024x1024_1_0_0_1_n_n 64 rfl rfl d
  have el : dot_S1024x64_S64x1024_S1024x1024_1_0_0_1_n_n.lhsIdx (ix2 q k) ((contrEquiv1 dot_S1024x64_S64x1024_S1024x1024_1_0_0_1_n_n 64 rfl rfl).symm d) = ix2 q d :=
    funext fun a => Fin.ext (by
      match a with
      | ⟨0, _⟩ => exact qk_lhs0 _ _
      | ⟨1, _⟩ => exact (qk_lhs1 _ _).trans hk)
  have er : dot_S1024x64_S64x1024_S1024x1024_1_0_0_1_n_n.rhsIdx (ix2 q k) ((contrEquiv1 dot_S1024x64_S64x1024_S1024x1024_1_0_0_1_n_n 64 rfl rfl).symm d) = ix2 d k :=
    funext fun a => Fin.ext (by
      match a with
      | ⟨0, _⟩ => exact (qk_rhs0 _ _).trans hk
      | ⟨1, _⟩ => exact qk_rhs1 _ _)
  rw [el, er]

/-- Weights times values into a zero accumulator: entry (q, d) is the sum over the 1024 keys. -/
theorem av_apply (A : FVec Ideal S1024x1024 .bf16) (B : FVec Ideal S1024x64 .bf16) (q : Fin 1024) (d : Fin 64) :
    matmul dot_S1024x1024_S1024x64_S1024x64_1_0_0_1_n_n none A B (constant S1024x64 .f32 0x00000000#32) (ix2 q d)
      = ∑ k : Fin 1024, A (ix2 q k) * B (ix2 k d) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 q d) ((contrEquiv1 dot_S1024x1024_S1024x64_S1024x64_1_0_0_1_n_n 1024 rfl rfl).symm k) = ix2 q k :=
    funext fun a => Fin.ext (by
      match a with
      | ⟨0, _⟩ => exact av_lhs0 _ _
      | ⟨1, _⟩ => exact (av_lhs1 _ _).trans hk)
  have er : dot_S1024x1024_S1024x64_S1024x64_1_0_0_1_n_n.rhsIdx (ix2 q d) ((contrEquiv1 dot_S1024x1024_S1024x64_S1024x64_1_0_0_1_n_n 1024 rfl rfl).symm k) = ix2 k d :=
    funext fun a => Fin.ext (by
      match a with
      | ⟨0, _⟩ => exact (av_rhs0 _ _).trans hk
      | ⟨1, _⟩ => exact av_rhs1 _ _)
  rw [el, er]

end Cert.KernelIdeal.Body

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.Spec.lean ====
/-
  Scaled dot-product attention with a masked fill, as plain functions on the extended reals.

  For one (batch, head) pair the inputs are three 1024 × 64 matrices (queries, keys, values) and a 1024 × 1024 table of
  one-bit flags. The score of query row `q` against key row `k` is the inner product of the two rows times 1/8, replaced by
  the constant −10⁹ where the flag is set. A row's scores are turned into weights by the softmax: subtract the row's
  maximum, exponentiate, divide by the row's sum of exponentials. The context row is the weights' combination of the value
  rows. The whole arrays have shape [8, 12, 1024, ·]; the result at (b, h, q, ·) depends only on the slices at (b, h).
-/
import Idealize.ShloMosaic.PureOps.Ideal
import Idealize.ShloMosaic.Lib.ValueIdx

noncomputable section

namespace AttnSpec

open Idealize.ShloMosaic Idealize.ShloMosaic.ValueIdx

/-- The fill value −10⁹ (as a binary32 pattern), the scale 1/8, and −∞, the start of a running maximum. -/
abbrev fill : EReal := Ideal.ofBits .f32 0xCE6E6B28#32
abbrev scale : EReal := Ideal.ofBits .f32 0x3E000000#32
abbrev negInf : EReal := Ideal.ofBits .f32 0xFF800000#32

section OneHead

variable (Qb Kb Vb : Fin 1024 → Fin 64 → EReal) (Mb : Fin 1024 → Fin 1024 → BitVec 1)

/-- The masked, scaled score of query row `q` against key row `k`. -/
def score (q k : Fin 1024) : EReal :=
  Scalar.select (Mb q k) fill ((∑ d : Fin 64, Qb q d * Kb k d) * scale)

/-- The maximum of row `q`'s scores (taken from −∞, and once more against −∞, as both programs do). -/
def rowMax (q : Fin 1024) : EReal :=
  max negInf ((Finset.univ : Finset (Fin 1024)).fold max negInf (fun k => score Qb Kb Mb q k))

/-- The unnormalised weight: the exponential of the score's distance below the row maximum. -/
def weight (q k : Fin 1024) : EReal := Ideal.exp (score Qb Kb Mb q k - rowMax Qb Kb Mb q)

/-- The normaliser: the sum of row `q`'s weights. -/
def rowSum (q : Fin 1024) : EReal := ∑ k : Fin 1024, weight Qb Kb Mb q k

/-- The attention weight of key `k` for query `q`. -/
def prob (q k : Fin 1024) : EReal := Ideal.div (weight Qb Kb Mb q k) (rowSum Qb Kb Mb q)

/-- The context: the value rows combined with row `q`'s attention weights. -/
def context (q : Fin 1024) (d : Fin 64) : EReal := ∑ k : Fin 1024, prob Qb Kb Mb q k * Vb k d

end OneHead

/-- The (b, h) slice of a [8, 12, 1024, n] array as a matrix. -/
def slice {α : Type} {n : Nat} (X : (⟨4, ![8, 12, 1024, n]⟩ : Shape).Idx → α) (b : Fin 8) (h : Fin 12) : Fin 1024 → Fin n → α :=
  fun r c => X (ix4 b h r c)

/-- The attention weights of the whole arrays: at (b, h, q, k) the one-head weights of the (b, h) slices. -/
def probs (Q K : (⟨4, ![8, 12, 1024, 64]⟩ : Shape).Idx → EReal) (M : (⟨4, ![8, 12, 1024, 1024]⟩ : Shape).Idx → BitVec 1) :
    (⟨4, ![8, 12, 1024, 1024]⟩ : Shape).Idx → EReal :=
  fun i => prob (slice Q (i 0) (i 1)) (slice K (i 0) (i 1)) (slice M (i 0) (i 1)) (i 2) (i 3)

/-- The contexts of the whole arrays: at (b, h, q, d) the one-head context of the (b, h) slices. -/
def contexts (Q K V : (⟨4, ![8, 12, 1024, 64]⟩ : Shape).Idx → EReal) (M : (⟨4, ![8, 12, 1024, 1024]⟩ : Shape).Idx → BitVec 1) :
    (⟨4, ![8, 12, 1024, 64]⟩ : Shape).Idx → EReal :=
  fun i => context (slice Q (i 0) (i 1)) (slice K (i 0) (i 1)) (slice V (i 0) (i 1)) (slice M (i 0) (i 1)) (i 2) (i 3)

/-- A one-bit flag widened to a word and tested against zero is the flag. -/
theorem flag_of_word (b : BitVec 1) : IntOp.cmpi .ne (b.setWidth 32) 0#32 = b := by
  by_cases h : b = 1#1
  · subst h; decide
  · have h0 := eq_zero_of_ne_one h; subst h0; decide

end AttnSpec

end
-- ==== Proof.BodySoftmax.lean ====
/-
  The score matrix and the row softmax of the attention body, as functions of matrices, read entry by entry.

  The score matrix of a query matrix, a key matrix and a matrix of flag words: the product with the transposed keys,
  scaled by 1/8, the entries with a non-zero flag word replaced by −10⁹ (narrowing an operand to bfloat16 changes nothing
  on the extended reals). The row softmax of a matrix: each row's maximum from −∞ (and once more against −∞) put back on
  the row, subtracted, exponentiated; each row's sum of those from 0 put back on the row; the quotient. Entry (q, k)
  depends on row q only, and is the one-head attention weight of `AttnSpec`.
-/
import proofs.«159906_j1657857376380_1_alg».proof.Proof.BodyOps
import proofs.«159906_j1657857376380_1_alg».proof.Proof.LibRowOps
import proofs.«159906_j1657857376380_1_alg».proof.Proof.Spec

noncomputable section

namespace Cert.KernelIdeal.Body

open Cert.KernelIdeal Cert.KernelIdeal.Gen
open Idealize.ShloMosaic Idealize.ShloMosaic.ValueIdx AttnSpec

/-- The product of queries and transposed keys, the operands narrowed to bfloat16. -/
def productOf (A B : FVec Ideal S1024x64 .f32) : FVec Ideal S1024x1024 .f32 :=
  matmul dot_S1024x64_S64x1024_S1024x1024_1_0_0_1_n_n none (truncf .bf16 A bitsLt_bf16_f32)
    (transpose S64x1024 [1, 0] (truncf .bf16 B bitsLt_bf16_f32) transposes_S1024x64_p1_0_S64x1024)
    (constant S1024x1024 .f32 0x00000000#32)

/-- The filled, scaled score matrix of a query matrix, a key matrix and a matrix of flag words. -/
def scoresOf (A B : FVec Ideal S1024x64 .f32) (W : IVec S1024x1024 32) : FVec Ideal S1024x1024 .f32 :=
  select (cmpi .ne W (constantI S1024x1024 32 0#32)) (broadcast S1024x1024 (Scalar.ofBits (F := Ideal) .f32 0xCE6E6B28#32))
    (mulf (productOf A B) (broadcast S1024x1024 (Scalar.ofBits (F := Ideal) .f32 0x3E000000#32)))

/-- Each row's maximum as a vector. -/
def rowMaxVec (S : FVec Ideal S1024x1024 .f32) : FVec Ideal S1024 .f32 :=
  maximumf (broadcast S1024 (Scalar.ofBits (F := Ideal) .f32 0xFF800000#32))
    (multiReduction .maximumf [1] S1024 S 0xFF800000#32 reduces_S1024x1024_S1024 (.inl rfl) rfl)

/-- Each row's maximum, put back on the row's entries. -/
def rowMaxOf (S : FVec Ideal S1024x1024 .f32) : FVec Ideal S1024x1024 .f32 :=
  broadcastTo S1024x1024 (shapeCast S1024x1 (rowMaxVec S) shapeCasts_S1024_S1024x1) broadcasts_S1024x1_S1024x1024

/-- The exponentials of the distances below the row maxima. -/
def expOf (S : FVec Ideal S1024x1024 .f32) : FVec Ideal S1024x1024 .f32 := exp (subf S (rowMaxOf S))

/-- Each row's sum of exponentials as a vector. -/
def rowSumVec (S : FVec Ideal S1024x1024 .f32) : FVec Ideal S1024 .f32 :=
  multiReduction .add [1] S1024 (expOf S) 0x00000000#32 reduces_S1024x1024_S1024 (.inl rfl) rfl

/-- Each row's sum of exponentials, put back on the row's entries. -/
def rowSumOf (S : FVec Ideal S1024x1024 .f32) : FVec Ideal S1024x1024 .f32 :=
  broadcastTo S1024x1024 (shapeCast S1024x1 (rowSumVec S) shapeCasts_S1024_S1024x1) broadcasts_S1024x1_S1024x1024

/-- The row softmax. -/
def softmaxOf (S : FVec Ideal S1024x1024 .f32) : FVec Ideal S1024x1024 .f32 := divf (expOf S) (rowSumOf S)

/-- Entry (q, k) of the product: the inner product of query row q and key row k. -/
theorem productOf_apply (A B : FVec Ideal S1024x64 .f32) (q k : Fin 1024) :
    productOf A B (ix2 q k) = ∑ d : Fin 64, A (ix2 q d) * B (ix2 k d) := by
  unfold productOf
  refine (qk_apply _ _ q k).trans (Finset.sum_congr rfl fun d _ => ?_)
  exact congrArg (A (ix2 q d) * ·) (keysT_apply (truncf .bf16 B bitsLt_bf16_f32) transposes_S1024x64_p1_0_S64x1024 d k)

/-- Entry (q, k) of the score matrix. -/
theorem scoresOf_apply (A B : FVec Ideal S1024x64 .f32) (W : IVec S1024x1024 32) (q k : Fin 1024) :
    scoresOf A B W (ix2 q k)
      = score (fun r d => A (ix2 r d)) (fun r d => B (ix2 r d)) (fun r c => IntOp.cmpi .ne (W (ix2 r c)) 0#32) q k := by
  show Scalar.select (IntOp.cmpi .ne (W (ix2 q k)) 0#32) fill (productOf A B (ix2 q k) * scale) = _
  rw [productOf_apply]
  rfl

/-- A float literal on the scalar unit denotes the value of its word. -/
theorem scalar_ofBits_f32 (w : BitVec 32) : Scalar.ofBits (F := Ideal) .f32 w = Ideal.ofBits .f32 w := rfl

/-- A column made of a vector and put back on the rows reads, at (q, k), the vector's entry q. -/
theorem keep_apply (v : FVec Ideal S1024 .f32) (q k : Fin 1024) :
    broadcastTo S1024x1024 (shapeCast S1024x1 v shapeCasts_S1024_S1024x1) broadcasts_S1024x1_S1024x1024 (ix2 q k) = v (ix1 q) :=
  (RowOps.broadcastTo_a1_ab_apply (shapeCast S1024x1 v shapeCasts_S1024_S1024x1) broadcasts_S1024x1_S1024x1024 q k).trans
    (RowOps.shapeCast_a_a1_apply v shapeCasts_S1024_S1024x1 q (0 : Fin 1))

/-- Row q's maximum: the fold of `max` from −∞ over the row, and `max` with −∞ once more. -/
theorem rowMaxVec_apply (S : FVec Ideal S1024x1024 .f32) (q : Fin 1024) :
    rowMaxVec S (ix1 q) = max negInf ((Finset.univ : Finset (Fin 1024)).fold max negInf (fun k' => S (ix2 q k'))) := by
  unfold rowMaxVec
  refine (maximumf_apply _ _ (ix1 q)).trans ?_
  refine congrArg₂ max ?_ (RowOps.rowMax_apply S 0xFF800000#32 reduces_S1024x1024_S1024 (.inl rfl) rfl q)
  exact scalar_ofBits_f32 _

/-- The row maximum, at any entry of row `q`. -/
theorem rowMaxOf_apply (S : FVec Ideal S1024x1024 .f32) (q k : Fin 1024) :
    rowMaxOf S (ix2 q k) = max negInf ((Finset.univ : Finset (Fin 1024)).fold max negInf (fun k' => S (ix2 q k'))) := by
  unfold rowMaxOf
  exact (keep_apply (rowMaxVec S) q k).trans (rowMaxVec_apply S q)

/-- Row q's sum of exponentials. -/
theorem rowSumVec_apply (S : FVec Ideal S1024x1024 .f32) (q : Fin 1024) :
    rowSumVec S (ix1 q) = ∑ k' : Fin 1024, expOf S (ix2 q k') := by
  unfold rowSumVec
  exact RowOps.rowSum_apply (expOf S) 0x00000000#32 reduces_S1024x1024_S1024 (.inl rfl) rfl q

/-- The row sum, at any entry of row `q`. -/
theorem rowSumOf_apply (S : FVec Ideal S1024x1024 .f32) (q k : Fin 1024) :
    rowSumOf S (ix2 q k) = ∑ k' : Fin 1024, expOf S (ix2 q k') := by
  unfold rowSumOf
  exact (keep_apply (rowSumVec S) q k).trans (rowSumVec_apply S q)

/-- Entry (q, k) of the row softmax of a matrix whose entries are one-head scores is the one-head attention weight. -/
theorem softmaxOf_apply (S : FVec Ideal S1024x1024 .f32) (Qb Kb : Fin 1024 → Fin 64 → EReal) (Mb : Fin 1024 → Fin 1024 → BitVec 1)
    (hS : ∀ q k, S (ix2 q k) = score Qb Kb Mb q k) (q k : Fin 1024) :
    softmaxOf S (ix2 q k) = prob Qb Kb Mb q k := by
  have hrow : (fun k' => S (ix2 q k')) = fun k' => score Qb Kb Mb q k' := funext fun k' => hS q k'
  have hM : ∀ k', rowMaxOf S (ix2 q k') = rowMax Qb Kb Mb q := fun k' => by
    rw [rowMaxOf_apply, hrow]; rfl
  have hE : ∀ k', expOf S (ix2 q k') = weight Qb Kb Mb q k' := fun k' => by
    show Ideal.exp (S (ix2 q k') - rowMaxOf S (ix2 q k')) = _
    rw [hM, hS]; rfl
  show Ideal.div (expOf S (ix2 q k)) (rowSumOf S (ix2 q k)) = _
  rw [rowSumOf_apply, hE]
  have hsum : (∑ k' : Fin 1024, expOf S (ix2 q k')) = rowSum Qb Kb Mb q := Finset.sum_congr rfl fun k' _ => hE k'
  rw [hsum]; rfl

end Cert.KernelIdeal.Body

end
-- ==== Proof.BodyPayload.lean ====
/-
  The kernel body's two stored values at one grid point, read at a block index.

  The body views its three 1 × 1 × 1024 × 64 blocks and its 1 × 1 × 1024 × 1024 block of flag words as matrices, stores the
  row softmax of their score matrix (viewed as a 1 × 1 × 1024 × 1024 block) as the weights, and stores the weights times
  the value matrix (viewed as a 1 × 1 × 1024 × 64 block) as the context. At block index y both depend on y's last two
  coordinates only, and are the one-head functions of `AttnSpec` of the blocks read as matrices.
-/
import proofs.«159906_j1657857376380_1_alg».proof.Proof.Gen.KernelIdeal.Skeleton
import proofs.«159906_j1657857376380_1_alg».proof.Proof.BodySoftmax

noncomputable section

namespace Cert.KernelIdeal.Body

open Cert.KernelIdeal Cert.KernelIdeal.Gen
open Idealize.ShloMosaic Idealize.ShloMosaic.ValueIdx AttnSpec

/-- A block read as a matrix, and a block of flag words read as a matrix of flags (set where the word is non-zero). -/
abbrev matOf {n : Nat} (P : (⟨4, ![1, 1, 1024, n]⟩ : Shape).Idx → EReal) : Fin 1024 → Fin n → EReal :=
  fun r c => P (ix4 (0 : Fin 1) (0 : Fin 1) r c)
abbrev flagsOf (P : (⟨4, ![1, 1, 1024, 1024]⟩ : Shape).Idx → BitVec 32) : Fin 1024 → Fin 1024 → BitVec 1 :=
  fun r c => IntOp.cmpi .ne (P (ix4 (0 : Fin 1) (0 : Fin 1) r c)) 0#32

/-- The weights value is the row softmax of the score matrix of the blocks viewed as matrices. -/
theorem pay3_eq (P0 P1 : Vec Ideal S1x1x1024x64 .f32) (P3 : Vec Ideal S1x1x1024x1024 .i32) :
    k0_pay3 (F := Ideal) P0 P1 P3
      = softmaxOf (scoresOf (shapeCast S1024x64 P0 shapeCasts_S1x1x1024x64_S1024x64) (shapeCast S1024x64 P1 shapeCasts_S1x1x1024x64_S1024x64)
          (shapeCast S1024x1024 P3 shapeCasts_S1x1x1024x1024_S1024x1024)) := rfl

/-- Entry (q, k) of the weights value: the one-head attention weight of the blocks. -/
theorem pay3_apply (P0 P1 : Vec Ideal S1x1x1024x64 .f32) (P3 : Vec Ideal S1x1x1024x1024 .i32) (q k : Fin 1024) :
    k0_pay3 (F := Ideal) P0 P1 P3 (ix2 q k) = prob (matOf P0) (matOf P1) (flagsOf P3) q k := by
  rw [pay3_eq]
  refine softmaxOf_apply _ (matOf P0) (matOf P1) (flagsOf P3) (fun q' k' => ?_) q k
  refine (scoresOf_apply _ _ _ q' k').trans ?_
  have e0 : (fun r d => shapeCast S1024x64 P0 shapeCasts_S1x1x1024x64_S1024x64 (ix2 r d)) = matOf P0 :=
    funext fun r => funext fun d => squeeze_apply P0 shapeCasts_S1x1x1024x64_S1024x64 r d
  have e1 : (fun r d => shapeCast S1024x64 P1 shapeCasts_S1x1x1024x64_S1024x64 (ix2 r d)) = matOf P1 :=
    funext fun r => funext fun d => squeeze_apply P1 shapeCasts_S1x1x1024x64_S1024x64 r d
  have e3 : (fun r c => IntOp.cmpi .ne (shapeCast S1024x1024 P3 shapeCasts_S1x1x1024x1024_S1024x1024 (ix2 r c)) 0#32) = flagsOf P3 :=
    funext fun r => funext fun c => congrArg (IntOp.cmpi .ne · 0#32) (squeeze_apply P3 shapeCasts_S1x1x1024x1024_S1024x1024 r c)
  rw [e0, e1, e3]

/-- The stored weights at a block index. -/
theorem pay4_apply (P0 P1 : Vec Ideal S1x1x1024x64 .f32) (P3 : Vec Ideal S1x1x1024x1024 .i32) (y : S1x1x1024x1024.Idx) :
    k0_pay4 (F := Ideal) P0 P1 P3 y = prob (matOf P0) (matOf P1) (flagsOf P3) (y 2) (y 3) := by
  unfold k0_pay4
  refine (unsqueeze_apply _ _ y).trans ?_
  exact pay3_apply P0 P1 P3 (y 2) (y 3)

/-- The stored context at a block index. -/
theorem pay1_apply (P0 P1 P2 : Vec Ideal S1x1x1024x64 .f32) (P3 : Vec Ideal S1x1x1024x1024 .i32) (y : S1x1x1024x64.Idx) :
    k0_pay1 (F := Ideal) (k0_pay2 P2) (k0_pay3 P0 P1 P3) y = context (matOf P0) (matOf P1) (matOf P2) (flagsOf P3) (y 2) (y 3) := by
  unfold k0_pay1 k0_pay2
  refine (unsqueeze_apply _ _ y).trans ?_
  refine (av_apply _ _ (y 2) (y 3)).trans ?_
  unfold context
  refine Finset.sum_congr rfl fun k _ => ?_
  exact congrArg₂ (· * ·) (pay3_apply P0 P1 P3 (y 2) k) (squeeze_apply P2 shapeCasts_S1x1x1024x64_S1024x64 k (y 3))

end Cert.KernelIdeal.Body

end
-- ==== Proof.KernelValue.lean ====
/-
  From the grid points' blocks to the two result arrays of the attention kernel.

  The grid has one point per (batch, head) pair. At a point every window's block sits at block index (b, h, 0, 0) of its
  array: the query, key and value blocks are the (b, h) slices of the three arguments, the flag-word block is the (b, h)
  slice of the flags widened to words, and the two output blocks are the (b, h) slices of the results. So what a point
  writes back is the (b, h) block of the whole-array functions `AttnSpec.contexts` and `AttnSpec.probs` of the arguments;
  the 96 blocks cover the arrays, hence the arrays end holding those functions.
-/
import proofs.«159906_j1657857376380_1_alg».proof.Proof.Gen.KernelIdeal.Value
import proofs.«159906_j1657857376380_1_alg».proof.Proof.BodyPayload
import Idealize.ShloMosaic.Lib.StableHlo.Run

set_option maxRecDepth 16384

noncomputable section

namespace Cert.KernelIdeal.Whole

open Cert.KernelIdeal Cert.KernelIdeal.Gen Cert.KernelIdeal.Body
open Idealize.ShloMosaic Idealize.ShloMosaic.TcCoe Idealize.SL.Sem Idealize.ShloMosaic.ValueIdx AttnSpec
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The arguments on core `c`, as arrays of extended reals and of one-bit flags. -/
abbrev argQ (c : Dev nD) : S8x12x1024x64.Idx → EReal := m ((c : Thread nD τ).loc main_arg0)
abbrev argK (c : Dev nD) : S8x12x1024x64.Idx → EReal := m ((c : Thread nD τ).loc main_arg1)
abbrev argV (c : Dev nD) : S8x12x1024x64.Idx → EReal := m ((c : Thread nD τ).loc main_arg2)
abbrev argM (c : Dev nD) : S8x12x1024x1024.Idx → BitVec 1 := m ((c : Thread nD τ).loc main_arg3)

/-- The flag words the region finds: the one-bit flags widened to 32 bits. -/
theorem V_words (c : Dev nD) : (V m c main_v0 : S8x12x1024x1024.Idx → BitVec 32) = extui 32 (argM m c) natLt_1_32 := by
  dsimp only [Gen.V, Gen.hostOps0]; after_results

/-- Every window's block index at point `t` is (b, h, 0, 0) with the same (b, h), inside the arrays (decided over the 96 points). -/
theorem idx_facts : ∀ t : Fin cfg0.N,
    (win0_0.index t 0 = win0_5.index t 0 ∧ win0_0.index t 1 = win0_5.index t 1 ∧ win0_0.index t 2 = 0 ∧ win0_0.index t 3 = 0)
    ∧ (win0_1.index t 0 = win0_5.index t 0 ∧ win0_1.index t 1 = win0_5.index t 1 ∧ win0_1.index t 2 = 0 ∧ win0_1.index t 3 = 0)
    ∧ (win0_2.index t 0 = win0_5.index t 0 ∧ win0_2.index t 1 = win0_5.index t 1 ∧ win0_2.index t 2 = 0 ∧ win0_2.index t 3 = 0)
    ∧ (win0_3.index t 0 = win0_5.index t 0 ∧ win0_3.index t 1 = win0_5.index t 1 ∧ win0_3.index t 2 = 0 ∧ win0_3.index t 3 = 0)
    ∧ (win0_4.index t 0 = win0_5.index t 0 ∧ win0_4.index t 1 = win0_5.index t 1 ∧ win0_4.index t 2 = 0 ∧ win0_4.index t 3 = 0)
    ∧ (win0_5.index t 0 < 8 ∧ win0_5.index t 1 < 12 ∧ win0_5.index t 2 = 0 ∧ win0_5.index t 3 = 0) :=
  (by decide +kernel : ∀ t : Fin grid0.N, _)

/-- Every (b, h) is some point's block index. -/
theorem idx_onto : ∀ (b : Fin 8) (h : Fin 12), ∃ t : Fin cfg0.N, win0_5.index t 0 = b.val ∧ win0_5.index t 1 = h.val :=
  (by decide +kernel : ∀ (b : Fin 8) (h : Fin 12), ∃ t : Fin grid0.N, win0_5.index t 0 = b.val ∧ win0_5.index t 1 = h.val)

/-! ## The input blocks at a point are the (b, h) slices -/

section Blocks

variable (c : Dev nD) (t : Fin cfg0.N) (b : Fin 8) (h : Fin 12) (hb : b.val = win0_5.index t 0) (hh : h.val = win0_5.index t 1)
include hb hh

theorem blockQ (r : Fin 1024) (d : Fin 64) :
    (iblk m c 0 t : Vec Ideal S1x1x1024x64 .f32) (ix4 (0 : Fin 1) (0 : Fin 1) r d) = argQ m c (ix4 b h r d) := by
  obtain ⟨⟨e0, e1, e2, e3⟩, -⟩ := idx_facts t
  unfold iblk
  rw [View.read_apply]
  show V m c main_arg0 _ = _
  rw [V_main_arg0]
  refine congrArg (argQ m c) (funext fun a => Fin.ext ?_)
  match a with
  | ⟨0, _⟩ => show win0_0.index t 0 * 1 + 1 * 0 = b.val; omega
  | ⟨1, _⟩ => show win0_0.index t 1 * 1 + 1 * 0 = h.val; omega
  | ⟨2, _⟩ => show win0_0.index t 2 * 1024 + 1 * r.val = r.val; omega
  | ⟨3, _⟩ => show win0_0.index t 3 * 64 + 1 * d.val = d.val; omega

theorem blockK (r : Fin 1024) (d : Fin 64) :
    (iblk m c 1 t : Vec Ideal S1x1x1024x64 .f32) (ix4 (0 : Fin 1) (0 : Fin 1) r d) = argK m c (ix4 b h r d) := by
  obtain ⟨-, ⟨e0, e1, e2, e3⟩, -⟩ := idx_facts t
  unfold iblk
  rw [View.read_apply]
  show V m c main_arg1 _ = _
  rw [V_main_arg1]
  refine congrArg (argK m c) (funext fun a => Fin.ext ?_)
  match a with
  | ⟨0, _⟩ => show win0_1.index t 0 * 1 + 1 * 0 = b.val; omega
  | ⟨1, _⟩ => show win0_1.index t 1 * 1 + 1 * 0 = h.val; omega
  | ⟨2, _⟩ => show win0_1.index t 2 * 1024 + 1 * r.val = r.val; omega
  | ⟨3, _⟩ => show win0_1.index t 3 * 64 + 1 * d.val = d.val; omega

theorem blockV (r : Fin 1024) (d : Fin 64) :
    (iblk m c 2 t : Vec Ideal S1x1x1024x64 .f32) (ix4 (0 : Fin 1) (0 : Fin 1) r d) = argV m c (ix4 b h r d) := by
  obtain ⟨-, -, ⟨e0, e1, e2, e3⟩, -⟩ := idx_facts t
  unfold iblk
  rw [View.read_apply]
  show V m c main_arg2 _ = _
  rw [V_main_arg2]
  refine congrArg (argV m c) (funext fun a => Fin.ext ?_)
  match a with
  | ⟨0, _⟩ => show win0_2.index t 0 * 1 + 1 * 0 = b.val; omega
  | ⟨1, _⟩ => show win0_2.index t 1 * 1 + 1 * 0 = h.val; omega
  | ⟨2, _⟩ => show win0_2.index t 2 * 1024 + 1 * r.val = r.val; omega
  | ⟨3, _⟩ => show win0_2.index t 3 * 64 + 1 * d.val = d.val; omega

/-- The flag-word block, tested against zero, is the (b, h) slice of the flags. -/
theorem blockM (r k : Fin 1024) :
    IntOp.cmpi .ne ((iblk m c 3 t : Vec Ideal S1x1x1024x1024 .i32) (ix4 (0 : Fin 1) (0 : Fin 1) r k)) 0#32 = argM m c (ix4 b h r k) := by
  obtain ⟨-, -, -, ⟨e0, e1, e2, e3⟩, -⟩ := idx_facts t
  unfold iblk
  rw [View.read_apply]
  show IntOp.cmpi .ne ((V m c main_v0 : S8x12x1024x1024.Idx → BitVec 32) _) 0#32 = _
  rw [V_words]
  refine (flag_of_word _).trans (congrArg (argM m c) (funext fun a => Fin.ext ?_))
  match a with
  | ⟨0, _⟩ => show win0_3.index t 0 * 1 + 1 * 0 = b.val; omega
  | ⟨1, _⟩ => show win0_3.index t 1 * 1 + 1 * 0 = h.val; omega
  | ⟨2, _⟩ => show win0_3.index t 2 * 1024 + 1 * r.val = r.val; omega
  | ⟨3, _⟩ => show win0_3.index t 3 * 1024 + 1 * k.val = k.val; omega

theorem matQ : matOf (iblk m c 0 t : Vec Ideal S1x1x1024x64 .f32) = slice (argQ m c) b h :=
  funext fun r => funext fun d => blockQ m c t b h hb hh r d
theorem matK : matOf (iblk m c 1 t : Vec Ideal S1x1x1024x64 .f32) = slice (argK m c) b h :=
  funext fun r => funext fun d => blockK m c t b h hb hh r d
theorem matV : matOf (iblk m c 2 t : Vec Ideal S1x1x1024x64 .f32) = slice (argV m c) b h :=
  funext fun r => funext fun d => blockV m c t b h hb hh r d
theorem matM : flagsOf (iblk m c 3 t : Vec Ideal S1x1x1024x1024 .i32) = slice (argM m c) b h :=
  funext fun r => funext fun k => blockM m c t b h hb hh r k

end Blocks

/-! ## What a point writes back -/

/-- Point `t` writes back block `t` of the attention weights of the arguments. -/
theorem flushed5_eq (c : Dev nD) (t : Fin cfg0.N) :
    (dats m 0 c).flushed 5 t = ((cfg0.win 5).blk t).view.read (Elt Ideal) (probs (argQ m c) (argK m c) (argM m c)) := by
  obtain ⟨-, -, -, -, -, ⟨hb, hh, e2, e3⟩⟩ := idx_facts t
  rw [Value.flushed5]
  unfold out0_5
  rw [View.canon_unit_zero hz]
  simp only [View.ld_unit_zero (S := S1x1x1024x64) hz, View.ld_unit_zero (S := S1x1x1024x1024) hz]
  funext y
  show k0_pay4 (F := Ideal) (iblk m c 0 t) (iblk m c 1 t) (iblk m c 3 t) y
    = probs (argQ m c) (argK m c) (argM m c) (((cfg0.win 5).blk t).view.emb y)
  refine (pay4_apply (iblk m c 0 t) (iblk m c 1 t) (iblk m c 3 t) y).trans ?_
  rw [matQ m c t ⟨_, hb⟩ ⟨_, hh⟩ rfl rfl, matK m c t ⟨_, hb⟩ ⟨_, hh⟩ rfl rfl, matM m c t ⟨_, hb⟩ ⟨_, hh⟩ rfl rfl]
  have hy0 : (y 0).val < 1 := (y 0).isLt
  have hy1 : (y 1).val < 1 := (y 1).isLt
  have he : ((cfg0.win 5).blk t).view.emb y = ix4 (⟨_, hb⟩ : Fin 8) (⟨_, hh⟩ : Fin 12) (y 2) (y 3) := funext fun a => Fin.ext (by
    match a with
    | ⟨0, _⟩ => show win0_5.index t 0 * 1 + 1 * (y 0).val = win0_5.index t 0; omega
    | ⟨1, _⟩ => show win0_5.index t 1 * 1 + 1 * (y 1).val = win0_5.index t 1; omega
    | ⟨2, _⟩ => show win0_5.index t 2 * 1024 + 1 * (y 2).val = (y 2).val; omega
    | ⟨3, _⟩ => show win0_5.index t 3 * 1024 + 1 * (y 3).val = (y 3).val; omega)
  rw [he]
  rfl

/-- Point `t` writes back block `t` of the contexts of the arguments. -/
theorem flushed4_eq (c : Dev nD) (t : Fin cfg0.N) :
    (dats m 0 c).flushed 4 t = ((cfg0.win 4).blk t).view.read (Elt Ideal) (contexts (argQ m c) (argK m c) (argV m c) (argM m c)) := by
  obtain ⟨-, -, -, -, ⟨f0, f1, f2, f3⟩, ⟨hb, hh, e2, e3⟩⟩ := idx_facts t
  rw [Value.flushed4]
  unfold out0_4
  rw [View.canon_unit_zero hz]
  simp only [View.ld_unit_zero (S := S1x1x1024x64) hz, View.ld_unit_zero (S := S1x1x1024x1024) hz]
  funext y
  show k0_pay1 (F := Ideal) (k0_pay2 (iblk m c 2 t)) (k0_pay3 (iblk m c 0 t) (iblk m c 1 t) (iblk m c 3 t)) y
    = contexts (argQ m c) (argK m c) (argV m c) (argM m c) (((cfg0.win 4).blk t).view.emb y)
  refine (pay1_apply (iblk m c 0 t) (iblk m c 1 t) (iblk m c 2 t) (iblk m c 3 t) y).trans ?_
  rw [matQ m c t ⟨_, hb⟩ ⟨_, hh⟩ rfl rfl, matK m c t ⟨_, hb⟩ ⟨_, hh⟩ rfl rfl, matV m c t ⟨_, hb⟩ ⟨_, hh⟩ rfl rfl,
    matM m c t ⟨_, hb⟩ ⟨_, hh⟩ rfl rfl]
  have hy0 : (y 0).val < 1 := (y 0).isLt
  have hy1 : (y 1).val < 1 := (y 1).isLt
  have he : ((cfg0.win 4).blk t).view.emb y = ix4 (⟨_, hb⟩ : Fin 8) (⟨_, hh⟩ : Fin 12) (y 2) (y 3) := funext fun a => Fin.ext (by
    match a with
    | ⟨0, _⟩ => show win0_4.index t 0 * 1 + 1 * (y 0).val = win0_5.index t 0; omega
    | ⟨1, _⟩ => show win0_4.index t 1 * 1 + 1 * (y 1).val = win0_5.index t 1; omega
    | ⟨2, _⟩ => show win0_4.index t 2 * 1024 + 1 * (y 2).val = (y 2).val; omega
    | ⟨3, _⟩ => show win0_4.index t 3 * 64 + 1 * (y 3).val = (y 3).val; omega)
  rw [he]
  rfl

/-! ## The blocks cover the arrays -/

theorem mem_blk5 (t : Fin cfg0.N) (i : S8x12x1024x1024.Idx) :
    i ∈ ((cfg0.win 5).blk t).view.set ↔ ∀ a : Fin 4, win0_5.index t a * S1x1x1024x1024.size a ≤ (i a).val ∧ (i a).val < win0_5.index t a * S1x1x1024x1024.size a + S1x1x1024x1024.size a := by
  show i ∈ ((View.whole main_v1_1).slice (win0_5.rect t)).set ↔ _
  rw [View.set_slice_whole, Rect.mem_set_unit]
  exact Iff.rfl

theorem mem_blk4 (t : Fin cfg0.N) (i : S8x12x1024x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v1_0).slice (win0_4.rect t)).set ↔ _
  rw [View.set_slice_whole, Rect.mem_set_unit]
  exact Iff.rfl

theorem cover5 (i : S8x12x1024x1024.Idx) : ∃ t : Fin cfg0.N, (cfg0.win 5).flush t = true ∧ i ∈ ((cfg0.win 5).blk t).view.set := by
  obtain ⟨t, hb, hh⟩ := idx_onto (i 0) (i 1)
  obtain ⟨-, -, -, -, -, ⟨-, -, e2, e3⟩⟩ := idx_facts t
  refine ⟨t, flush0_5 t, (mem_blk5 t i).mpr fun a => ?_⟩
  have h2 : (i 2).val < 1024 := (i 2).isLt
  have h3 : (i 3).val < 1024 := (i 3).isLt
  match a with
  | ⟨0, _⟩ => show win0_5.index t 0 * 1 ≤ (i 0).val ∧ (i 0).val < win0_5.index t 0 * 1 + 1; omega
  | ⟨1, _⟩ => show win0_5.index t 1 * 1 ≤ (i 1).val ∧ (i 1).val < win0_5.index t 1 * 1 + 1; omega
  | ⟨2, _⟩ => show win0_5.index t 2 * 1024 ≤ (i 2).val ∧ (i 2).val < win0_5.index t 2 * 1024 + 1024; omega
  | ⟨3, _⟩ => show win0_5.index t 3 * 1024 ≤ (i 3).val ∧ (i 3).val < win0_5.index t 3 * 1024 + 1024; omega

theorem cover4 (i : S8x12x1024x64.Idx) : ∃ t : Fin cfg0.N, (cfg0.win 4).flush t = true ∧ i ∈ ((cfg0.win 4).blk t).view.set := by
  obtain ⟨t, hb, hh⟩ := idx_onto (i 0) (i 1)
  obtain ⟨-, -, -, -, ⟨f0, f1, f2, f3⟩, -⟩ := idx_facts t
  refine ⟨t, flush0_4 t, (mem_blk4 t i).mpr fun a => ?_⟩
  have h2 : (i 2).val < 1024 := (i 2).isLt
  have h3 : (i 3).val < 64 := (i 3).isLt
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
  | ⟨2, _⟩ => show win0_4.index t 2 * 1024 ≤ (i 2).val ∧ (i 2).val < win0_4.index t 2 * 1024 + 1024; omega
  | ⟨3, _⟩ => show win0_4.index t 3 * 64 ≤ (i 3).val ∧ (i 3).val < win0_4.index t 3 * 64 + 64; omega

/-! ## The arrays after the run, and the run -/

theorem final5 (c : Dev nD) : (dats m 0 c).arrAt 5 cfg0.N = probs (argQ m c) (argK m c) (argM m c) :=
  (dats m 0 c).arrAt_eq_of_cover 5 (probs (argQ m c) (argK m c) (argM m c)) (fun t _ => flushed5_eq m c t) cover5

theorem final4 (c : Dev nD) : (dats m 0 c).arrAt 4 cfg0.N = contexts (argQ m c) (argK m c) (argV m c) (argM m c) :=
  (dats m 0 c).arrAt_eq_of_cover 4 (contexts (argQ m c) (argK m c) (argV m c) (argM m c)) (fun t _ => flushed4_eq m c t) cover4

/-- The kernel's run: the two result arrays end at the contexts and the attention weights of the arguments, the arguments unchanged. -/
theorem run : θ_run defs (onTc (τ := τ) (main (F := Ideal))) ⟨m, fun _ => 0, ρ⟩ fun r => ∀ c : Dev nD,
      r.2.mem ((c : Thread nD τ).loc main_v1_0) = contexts (argQ m c) (argK m c) (argV m c) (argM m c)
      ∧ r.2.mem ((c : Thread nD τ).loc main_v1_1) = probs (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Whole

end
-- ==== Proof.RefValue.lean ====
/-
  The reference's stages, read at coordinates, are the attention functions of `AttnSpec`.

  The reference contracts queries against keys over the feature axis (a batched product over (b, h)), scales by 1/8,
  fills the flagged entries with −10⁹, takes each row's maximum over the key axis from −∞, subtracts it, exponentiates,
  sums each row from 0, divides, and contracts the weights against the values over the key axis. Each stage at the
  index (b, h, q, ·) reads its operands at indices with the same (b, h), so the whole computation is the one-head
  computation of the (b, h) slices.
-/
import proofs.«159906_j1657857376380_1_alg».proof.Proof.Gen.ReferenceIdeal.Read
import proofs.«159906_j1657857376380_1_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx AttnSpec

variable (x0 x1 x2 : (⟨S8x12x1024x64, .f32⟩ : BufTy).Contents (Elt Ideal))
  (x3 : (⟨S8x12x1024x1024, .i1⟩ : BufTy).Contents (Elt Ideal))

/-! ## The stages' operand indices at coordinates -/

theorem lidx0 (b : Fin 8) (h : Fin 12) (q k : Fin 1024) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)

theorem ridx0 (b : Fin 8) (h : Fin 12) (q k : Fin 1024) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)

theorem idx8 (b : Fin 8) (h : Fin 12) (q k : Fin 1024) : idx_main_v8 (ix4 b h q k) = ix4 b h q (0 : Fin 1) :=
  funext fun a => Fin.ext (by match a with | ⟨0, _⟩ => rfl | ⟨1, _⟩ => rfl | ⟨2, _⟩ => rfl | ⟨3, _⟩ => rfl)

theorem idx7 (b : Fin 8) (h : Fin 12) (q : Fin 1024) (u : Fin 1) : idx_main_v7 (ix4 b h q u) = ix3 b h q :=
  funext fun a => Fin.ext (by match a with | ⟨0, _⟩ => rfl | ⟨1, _⟩ => rfl | ⟨2, _⟩ => rfl)

theorem idx13 (b : Fin 8) (h : Fin 12) (q k : Fin 1024) : idx_main_v13 (ix4 b h q k) = ix4 b h q (0 : Fin 1) :=
  funext fun a => Fin.ext (by match a with | ⟨0, _⟩ => rfl | ⟨1, _⟩ => rfl | ⟨2, _⟩ => rfl | ⟨3, _⟩ => rfl)

theorem idx12 (b : Fin 8) (h : Fin 12) (q : Fin 1024) (u : Fin 1) : idx_main_v12 (ix4 b h q u) = ix3 b h q :=
  funext fun a => Fin.ext (by match a with | ⟨0, _⟩ => rfl | ⟨1, _⟩ => rfl | ⟨2, _⟩ => rfl)

theorem idx11 (b : Fin 8) (h : Fin 12) (q k : Fin 1024) : idx_main_v11 (ix3 b h q) k = ix4 b h q k :=
  funext fun a => Fin.ext (by match a with | ⟨0, _⟩ => rfl | ⟨1, _⟩ => rfl | ⟨2, _⟩ => rfl | ⟨3, _⟩ => rfl)

theorem lidx15 (b : Fin 8) (h : Fin 12) (q : Fin 1024) (d : Fin 64) (k : Fin 1024) : lidx_main_v15 (ix4 b h q d) k = ix4 b h q k :=
  funext fun a => Fin.ext (by match a with | ⟨0, _⟩ => rfl | ⟨1, _⟩ => rfl | ⟨2, _⟩ => rfl | ⟨3, _⟩ => rfl)

theorem ridx15 (b : Fin 8) (h : Fin 12) (q : Fin 1024) (d : Fin 64) (k : Fin 1024) : ridx_main_v15 (ix4 b h q d) k = ix4 b h k d :=
  funext fun a => Fin.ext (by match a with | ⟨0, _⟩ => rfl | ⟨1, _⟩ => rfl | ⟨2, _⟩ => rfl | ⟨3, _⟩ => rfl)

/-- Row (b, h, q) of the scores with the key coordinate `k` put back is (b, h, q, k). -/
theorem lift_key (hred : S8x12x1024x1024.Reduces [3] S8x12x1024) (b : Fin 8) (h : Fin 12) (q : Fin 1024)
    (k : Fin (S8x12x1024x1024.size 3)) : hred.lift (ix3 b h q) k = ix4 b h q (⟨k.val, k.isLt⟩ : Fin 1024) := by
  funext c; apply Fin.ext
  fin_cases c <;> rfl

/-! ## The stages -/

/-- The filled, scaled product at (b, h, q, k) is the one-head score of the (b, h) slices. -/
theorem score_eq (b : Fin 8) (h : Fin 12) (q k : Fin 1024) :
    val_main_v3 (F := Ideal) x0 x1 x3 (ix4 b h q k) = score (slice x0 b h) (slice x1 b h) (slice x3 b h) q k := by
  rw [val_main_v3_apply, val_main_call0_v0_apply, val_main_cst_0_apply, val_main_v2_apply, val_main_v0_apply,
    val_main_v1_apply, val_main_cst_apply]
  simp only [lidx0, ridx0]
  rfl

/-- The row maximum at (b, h, q): the fold of `max` from −∞ over the row's scores, then `max` with −∞ once more. -/
theorem rowMax_eq (b : Fin 8) (h : Fin 12) (q : Fin 1024) :
    val_main_v6 (F := Ideal) x0 x1 x3 (ix3 b h q) = rowMax (slice x0 b h) (slice x1 b h) (slice x3 b h) q := by
  have hred : S8x12x1024x1024.Reduces [3] S8x12x1024 := by decide
  rw [val_main_v6_apply, val_main_v5_apply, val_main_cst_2_apply]
  unfold val_main_v4
  rw [Host.reduce_eq_fold_single FloatOps.maximumf _ _ reducesTo_S8x12x1024x1024_S8x12x1024_d3 hred h_S_ (ix3 b h q)]
  have hf : (val_main_v3 (F := Ideal) x0 x1 x3 ∘ hred.lift (ix3 b h q))
      = fun k : Fin 1024 => score (slice x0 b h) (slice x1 b h) (slice x3 b h) q k :=
    funext fun k => by rw [Function.comp_apply, lift_key, score_eq]; rfl
  rw [hf]
  rfl

/-- The exponential of a score's distance below its row's maximum. -/
theorem weight_eq (b : Fin 8) (h : Fin 12) (q k : Fin 1024) :
    val_main_v10 (F := Ideal) x0 x1 x3 (ix4 b h q k) = weight (slice x0 b h) (slice x1 b h) (slice x3 b h) q k := by
  rw [val_main_v10_apply, val_main_v9_apply, val_main_v8_apply, idx8, val_main_v7_apply, idx7, score_eq, rowMax_eq]
  rfl

/-- The row's sum of exponentials, from 0. -/
theorem rowSum_eq (b : Fin 8) (h : Fin 12) (q : Fin 1024) :
    val_main_v11 (F := Ideal) x0 x1 x3 (ix3 b h q) = rowSum (slice x0 b h) (slice x1 b h) (slice x3 b h) q := by
  rw [val_main_v11_apply, val_main_cst_3_apply]
  simp only [idx11, weight_eq]
  show Ideal.ofBits .f32 0x00000000#32 + _ = _
  rw [Ideal.ofBits_zero_f32, zero_add]
  rfl

/-- The attention weight at (b, h, q, k). -/
theorem prob_eq (b : Fin 8) (h : Fin 12) (q k : Fin 1024) :
    val_main_v14 (F := Ideal) x0 x1 x3 (ix4 b h q k) = prob (slice x0 b h) (slice x1 b h) (slice x3 b h) q k := by
  rw [val_main_v14_apply, val_main_v13_apply, idx13, val_main_v12_apply, idx12, weight_eq, rowSum_eq]
  rfl

/-- The context at (b, h, q, d). -/
theorem context_eq (b : Fin 8) (h : Fin 12) (q : Fin 1024) (d : Fin 64) :
    val_main_v15 (F := Ideal) x0 x1 x2 x3 (ix4 b h q d)
      = context (slice x0 b h) (slice x1 b h) (slice x2 b h) (slice x3 b h) q d := by
  rw [val_main_v15_apply]
  simp only [lidx15, ridx15, prob_eq]
  rfl

/-! ## The two results as whole arrays -/

theorem probs_eq : val_main_v14 (F := Ideal) x0 x1 x3 = probs x0 x1 x3 := by
  funext i
  obtain ⟨b, h, q, k, rfl⟩ : ∃ (b : Fin 8) (h : Fin 12) (q k : Fin 1024), i = ix4 b h q k := ⟨i 0, i 1, i 2, i 3, eq_ix4 i⟩
  exact prob_eq x0 x1 x3 b h q k

theorem contexts_eq : val_main_v15 (F := Ideal) x0 x1 x2 x3 = contexts x0 x1 x2 x3 := by
  funext i
  obtain ⟨b, h, q, d, rfl⟩ : ∃ (b : Fin 8) (h : Fin 12) (q : Fin 1024) (d : Fin 64), i = ix4 b h q d := ⟨i 0, i 1, i 2, i 3, eq_ix4 i⟩
  exact context_eq x0 x1 x2 x3 b h q d

end Cert.ReferenceIdeal.RefValue

end
-- ==== Proof.lean ====
/-
  Scaled dot-product attention with a masked fill over f32[8, 12, 1024, 64] queries, keys and values and a
  [8, 12, 1024, 1024] table of flags: a kernel with one grid point per (batch, head) pair against the plain array program.

  On the extended reals both programs compute, for every (b, h), the same two functions of the (b, h) slices: the
  attention weights  p(q, k) = exp(s(q, k) − max_k s(q, k)) / Σ_k exp(s(q, k) − max_k s(q, k)),  where the score s(q, k) is
  (Σ_d Q(q, d) · K(k, d)) · 1/8, replaced by −10⁹ where the flag is set, and the contexts  Σ_k p(q, k) · V(k, d).
  The kernel narrows the operands of its two matrix products to bfloat16 and accumulates in f32 from zero; the reference
  contracts in f32. On the extended reals a change of format is the identity and a product into a zero accumulator is
  the sum of products, so the two sides are the same sums term by term; the row maximum is in both the fold of `max`
  from −∞ over the row, the row sum in both the sum over the row, and every literal (1/8, −10⁹, −∞, 0) is the same word
  on both sides. No law of the extended reals beyond `0 + x = x` is used, so the inputs' finiteness is not needed.

  The kernel's two result arrays are assembled from the 96 points' blocks (`KernelValue`), each block the one-head
  functions of the blocks the point holds (`BodyPayload`, over `BodySoftmax` and `BodyOps`); the reference's stages are
  read at coordinates (`RefValue`); both meet in `AttnSpec` (`Spec`). The kernel passes its flags to the region widened
  to 32-bit words and tests them against zero there, which gives the flags back.
-/
import proofs.«159906_j1657857376380_1_alg».proof.Defs
import proofs.«159906_j1657857376380_1_alg».proof.Proof.Gen.Kernel
import proofs.«159906_j1657857376380_1_alg».proof.Proof.Gen.Kernel.Frame
import proofs.«159906_j1657857376380_1_alg».proof.Proof.Gen.KernelIdeal
import proofs.«159906_j1657857376380_1_alg».proof.Proof.Gen.KernelIdeal.Frame
import proofs.«159906_j1657857376380_1_alg».proof.Proof.Gen.KernelIdeal.Value
import proofs.«159906_j1657857376380_1_alg».proof.Proof.Gen.ReferenceIdeal
import proofs.«159906_j1657857376380_1_alg».proof.Proof.Gen.ReferenceIdeal.Run
import proofs.«159906_j1657857376380_1_alg».proof.Proof.Gen.ReferenceIdeal.Read
import proofs.«159906_j1657857376380_1_alg».proof.Proof.Gen.Pre_finite_inputs
import proofs.«159906_j1657857376380_1_alg».proof.Proof.KernelValue
import proofs.«159906_j1657857376380_1_alg».proof.Proof.RefValue

noncomputable section

namespace Cert.Proof

open Idealize.ShloMosaic Idealize.ShloMosaic.TcCoe Idealize.SL.Sem AttnSpec

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments both programs end with the contexts and the attention weights of the
    arguments, as whole-array functions: the kernel's arrays block by block, the reference's stage by stage. -/
theorem algebraic : Cert.algebraic_KernelIdeal_ReferenceIdeal := by
  intro m ρ m' ρ' _ hagree
  refine ⟨fun c => contexts (Cert.KernelIdeal.Whole.argQ m c) (Cert.KernelIdeal.Whole.argK m c) (Cert.KernelIdeal.Whole.argV m c) (Cert.KernelIdeal.Whole.argM m c),
    fun c => probs (Cert.KernelIdeal.Whole.argQ m c) (Cert.KernelIdeal.Whole.argK m c) (Cert.KernelIdeal.Whole.argM m c),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.contexts_eq,
      (hagree c).1, (hagree c).2.1, (hagree c).2.2.1, (hagree c).2.2.2]
  · rw [Cert.ReferenceIdeal.Read.val_main_v14_eq, Cert.ReferenceIdeal.RefValue.probs_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
